-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg5 : FVec F S64 .f32) (main_arg6 : FVec F S64x10 .f32) (main_arg7 : FVec F S64x10 .f32) (main_arg8 : FVec F S10 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg6
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S64x10 .f32 := Host.absf main_arg7
  let main_cst_10 : FVec F S_ .f32 := constant S_ .f32 0x7F800000#32
  let main_v30 : FVec F S64x10 .f32 := broadcastInDim S64x10 ![] bcast_S_S64x10 main_cst_10
  let main_v31 : IVec S64x10 1 := cmpf .olt main_v29 main_v30
  let main_c_11 : IVec S_ 1 := constantI S_ 1 1#1
  let main_v32 : IVec S_ 1 := (fun x v => Host.reduce IntOp.andi x v reducesTo_S64x10_S_d0_1 h_S_) main_v31 main_c_11
  let main_v33 : IVec S_ 1 := andi main_v28 main_v32
  fn_part2 (F := F) main_arg8 main_v33

def fn {F : FTy → Type} [FloatOps F] (main_arg0 : FVec F S100000x512 .f32) (main_arg1 : IVec S2x3200000 32) (main_arg2 : FVec F S3200000 .f32) (main_arg3 : FVec F S512x64 .f32) (main_arg4 : FVec F S512x64 .f32) (main_arg5 : FVec F S64 .f32) (main_arg6 : FVec F S64x10 .f32) (main_arg7 : FVec F S64x10 .f32) (main_arg8 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg4
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg5 main_arg6 main_arg7 main_arg8 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x10 : Shape := ⟨2, ![64, 10]⟩
abbrev S10 : Shape := ⟨1, ![10]⟩
abbrev S100000x64 : Shape := ⟨2, ![100000, 64]⟩
abbrev S4000x512 : Shape := ⟨2, ![4000, 512]⟩
abbrev S4000x64 : Shape := ⟨2, ![4000, 64]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S100000x1 : Shape := ⟨2, ![100000, 1]⟩
abbrev S1x64 : Shape := ⟨2, ![1, 64]⟩
abbrev S1x10 : Shape := ⟨2, ![1, 10]⟩
abbrev S100000x10 : Shape := ⟨2, ![100000, 10]⟩
abbrev S4000x1 : Shape := ⟨2, ![4000, 1]⟩
abbrev S4000x10 : Shape := ⟨2, ![4000, 10]⟩

abbrev nBuf : Space → Nat
  | .hbm => 66
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x64, .f32⟩
  | .hbm, ⟨4, _⟩ => ⟨S512x64, .f32⟩
  | .hbm, ⟨5, _⟩ => ⟨S64, .f32⟩
  | .hbm, ⟨6, _⟩ => ⟨S64x10, .f32⟩
  | .hbm, ⟨7, _⟩ => ⟨S64x10, .f32⟩
  | .hbm, ⟨8, _⟩ => ⟨S10, .f32⟩
  | .hbm, ⟨9, _⟩ => ⟨S100000x64, .bf16⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S100000, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x64, .bf16⟩
  | .hbm, ⟨54, _⟩ => ⟨S3300000x1, .f32⟩
  | .hbm, ⟨55, _⟩ => ⟨S3300000x64, .f32⟩
  | .hbm, ⟨56, _⟩ => ⟨S3300000x64, .f32⟩
  | .hbm, ⟨57, _⟩ => ⟨S3300000x64, .f32⟩
  | .hbm, ⟨58, _⟩ => ⟨S_, .f32⟩
  | .hbm, ⟨59, _⟩ => ⟨S100000x64, .f32⟩
  | .hbm, ⟨60, _⟩ => ⟨S3300000x1, .i32⟩
  | .hbm, ⟨61, _⟩ => ⟨S100000x64, .f32⟩
  | .hbm, ⟨62, _⟩ => ⟨S100000x1, .f32⟩
  | .hbm, ⟨63, _⟩ => ⟨S1x64, .f32⟩
  | .hbm, ⟨64, _⟩ => ⟨S1x10, .f32⟩
  | .hbm, ⟨65, _⟩ => ⟨S100000x10, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S512x64, .f32⟩
  | .local _ .vmem, ⟨4, _⟩ => ⟨S4000x64, .bf16⟩
  | .local _ .vmem, ⟨5, _⟩ => ⟨S4000x64, .bf16⟩
  | .local _ .vmem, ⟨6, _⟩ => ⟨S4000x64, .f32⟩
  | .local _ .vmem, ⟨7, _⟩ => ⟨S4000x64, .f32⟩
  | .local _ .vmem, ⟨8, _⟩ => ⟨S4000x1, .f32⟩
  | .local _ .vmem, ⟨9, _⟩ => ⟨S4000x1, .f32⟩
  | .local _ .vmem, ⟨10, _⟩ => ⟨S1x64, .f32⟩
  | .local _ .vmem, ⟨11, _⟩ => ⟨S64x10, .f32⟩
  | .local _ .vmem, ⟨12, _⟩ => ⟨S64x10, .f32⟩
  | .local _ .vmem, ⟨13, _⟩ => ⟨S1x10, .f32⟩
  | .local _ .vmem, ⟨14, _⟩ => ⟨S4000x10, .f32⟩
  | .local _ .vmem, ⟨15, _⟩ => ⟨S4000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S512x64_S512x64_0_0 : ∀ a, (![0, 0] : Fin 2 → Nat) a + S512x64.size a ≤ S512x64.size a
  h_S512x64 : 0 < S512x64.numel
  bitsLt_bf16_f32 : FTy.bits .bf16 < FTy.bits .f32
  inb_S4000x512_S4000x512_0_0 : ∀ a, (![0, 0] : Fin 2 → Nat) a + S4000x512.size a ≤ S4000x512.size a
  h_S4000x512 : 0 < S4000x512.numel
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S10_S1x10 : S10.ShapeCasts S1x10
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4000x10 : S1x10.Broadcasts S4000x10
  inb_S4000x10_S4000x10_0_0 : ∀ a, (![0, 0] : Fin 2 → Nat) a + S4000x10.size a ≤ S4000x10.size a
  h_S4000x10 : 0 < S4000x10.numel
  dot_S4000x512_S512x64_S4000x64_1_0_0_1_n_n_wf : DotDims.WF S4000x512 S512x64 S4000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x10_S4000x10_1_0_0_1_n_n_wf : DotDims.WF S4000x64 S64x10 S4000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x10.size a ≤ S64x10.size a
  hwx1_3 : ∀ i : grid1.Coords, EltTy.bits .f32 = 32 ∨ (Rect.block (s := S64x10) S64x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x10.size a ≤ S64x10.size a
  hwx1_4 : ∀ i : grid1.Coords, EltTy.bits .f32 = 32 ∨ (Rect.block (s := S64x10) S64x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x10.size a ≤ S1x10.size a
  hwx1_5 : ∀ i : grid1.Coords, EltTy.bits .f32 = 32 ∨ (Rect.block (s := S1x10) S1x10.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x10.size a ≤ S100000x10.size a
  hwx1_6 : ∀ i : grid1.Coords, EltTy.bits .f32 = 32 ∨ (Rect.block (s := S100000x10) S4000x10.size (cc1_transform_6 i) (hinb1_6 i)).WholeWords (EltTy.packing .f32)

variable [Facts₀]

def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x10_S4000x10_1_0_0_1_n_n : DotDims S4000x64 S64x10 S4000x10 where
  lhsContracting := [1]
  rhsContracting := [0]
  lhsNonContracting := [0]
  rhsNonContracting := [1]
  lhsBatch := []
  rhsBatch := []
  wf := dot_S4000x64_S64x10_S4000x10_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S4000x10.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x10 : Shape := ⟨2, ![64, 10]⟩
abbrev S10 : Shape := ⟨1, ![10]⟩
abbrev S100000x64 : Shape := ⟨2, ![100000, 64]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x10 : Shape := ⟨2, ![100000, 10]⟩
abbrev S1x10 : Shape := ⟨2, ![1, 10]⟩

abbrev nBuf : Space → Nat
  | .hbm => 83
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x64, .f32⟩
  | .hbm, ⟨4, _⟩ => ⟨S512x64, .f32⟩
  | .hbm, ⟨5, _⟩ => ⟨S64, .f32⟩
  | .hbm, ⟨6, _⟩ => ⟨S64x10, .f32⟩
  | .hbm, ⟨7, _⟩ => ⟨S64x10, .f32⟩
  | .hbm, ⟨8, _⟩ => ⟨S10, .f32⟩
  | .hbm, ⟨9, _⟩ => ⟨S512x64, .f32⟩
  | .hbm, ⟨10, _⟩ => ⟨S100000x64, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S100000, .f32⟩
  | .hbm, ⟨20, _⟩ => ⟨S3300000, .f32⟩
  | .hbm, ⟨21, _⟩ => ⟨S_, .f32⟩
  | .hbm, ⟨22, _⟩ => ⟨S100000, .f32⟩
  | .hbm, ⟨23, _⟩ => ⟨S3300000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S_, .i32⟩
  | .hbm, ⟨57, _⟩ => ⟨S3300000, .i32⟩
  | .hbm, ⟨58, _⟩ => ⟨S3300000, .i1⟩
  | .hbm, ⟨59, _⟩ => ⟨S_, .i32⟩
  | .hbm, ⟨60, _⟩ => ⟨S3300000, .i32⟩
  | .hbm, ⟨61, _⟩ => ⟨S3300000, .i32⟩
  | .hbm, ⟨62, _⟩ => ⟨S3300000, .i32⟩
  | .hbm, ⟨63, _⟩ => ⟨S3300000x1, .i32⟩
  | .hbm, ⟨64, _⟩ => ⟨S3300000x64, .f32⟩
  | .hbm, ⟨65, _⟩ => ⟨S3300000x1, .f32⟩
  | .hbm, ⟨66, _⟩ => ⟨S3300000x64, .f32⟩
  | .hbm, ⟨67, _⟩ => ⟨S3300000x64, .f32⟩
  | .hbm, ⟨68, _⟩ => ⟨S_, .f32⟩
  | .hbm, ⟨69, _⟩ => ⟨S100000x64, .f32⟩
  | .hbm, ⟨70, _⟩ => ⟨S3300000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S64x10, .f32⟩
  | .hbm, ⟨79, _⟩ => ⟨S100000x10, .f32⟩
  | .hbm, ⟨80, _⟩ => ⟨S1x10, .f32⟩
  | .hbm, ⟨81, _⟩ => ⟨S100000x10, .f32⟩
  | .hbm, ⟨82, _⟩ => ⟨S100000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x512_S512x64_S100000x64_1_0_0_1_n_n_wf : DotDims.WF S100000x512 S512x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x10_S100000x10_1_0_0_1_n_n_wf : DotDims.WF S100000x64 S64x10 S100000x10 [1] [0] [0] [1] [] []

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.KernelRun.lean ====
/-
  The kernel program's run, with its result kept.

  @main is a first call (the feature transform), three stretches of host operations (degrees, normalisation, the edge
  gather and the segment sum), and a second call (the classifier head). Every weakly fair execution from a memory with
  zero counters terminates without a fault; at the end the argument arrays are as launched, and the result buffer holds
  what the fold of the boundary contents says it holds: the contents `W5` at the last boundary — the second call's
  output array after all its write-backs.
-/
import proofs.«115146_j15264313770213_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v44) = W5 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v44 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

/-- The last boundary's contents at the result buffer are the second call's output array after its write-backs. -/
theorem result_eq (c : Dev nD) :
    W5 m ρ c (Proc.devRef .tc main_v44) = (dat1 (V4 m ρ) c).arrAt 6 cfg1.N :=
  W5_arr m ρ c 6

end Cert.KernelIdeal.Whole

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payloads.lean ====
/-
  The two kernel bodies' arithmetic, read at one entry, at the ideal values.

  Feature transform (first call): the block of `x`, 4000 × 512, times the masked weight `W ∘ M`, 512 × 64. The two
  changes of float format around the product are the identity on extended reals, and the product accumulates into a
  splat of zeros, so entry `(p, q)` is `∑ k, x (p, k) · (W (k, q) · M (k, q))`.

  Classifier head (second call): the block of aggregated features `h`, 4000 × 64, is scaled row by row by the column
  `dv` (4000 × 1), shifted by the bias row `b1` (1 × 64), cut off below at the zero word, and multiplied by the masked
  weight `W ∘ M` (64 × 10); the bias row `b2` (1 × 10) is added. Entry `(p, q)` is
  `(∑ k, max (h (p, k) · dv (p, 0) + b1 (0, k)) z · (W (k, q) · M (k, q))) + b2 (0, q)`, `z` the zero word's value.
-/
import proofs.«115146_j15264313770213_2_alg».proof.Proof.Gen.KernelIdeal.Skeleton
import proofs.«115146_j15264313770213_2_alg».proof.Proof.LibContractPlain
import proofs.«115146_j15264313770213_2_alg».proof.Proof.LibKeepdims
import Idealize.ShloMosaic.Lib.ValueLayout
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen

/-- The feature transform's stored block at `(p, q)`. -/
theorem transform_apply (w mk : Vec Ideal S512x64 .f32) (x : Vec Ideal S4000x512 .f32) (p : Fin 4000) (q : Fin 64) :
    k0_pay1 (F := Ideal) w mk x (ix2 p q) = ∑ k : Fin 512, x (ix2 p k) * (w (ix2 k q) * mk (ix2 k q)) := by
  unfold k0_pay1
  exact Cert.Lib.ContractPlain.matmulZero_apply dot_S4000x512_S512x64_S4000x64_1_0_0_1_n_n rfl none _ _ p q

/-- The activation the head feeds its product, at `(p, k)`: the scaled, shifted feature cut off below at the zero
    word. -/
theorem activation_apply (h : Vec Ideal S4000x64 .f32) (dv : Vec Ideal S4000x1 .f32) (b1 : Vec Ideal S1x64 .f32)
    (p : Fin 4000) (k : Fin 64) :
    maximumf (F := Ideal) (addf (mulf (shapeCast S4000x64 h shapeCasts_S4000x64_S4000x64)
        (broadcastTo S4000x64 (shapeCast S4000x1 dv shapeCasts_S4000x1_S4000x1) broadcasts_S4000x1_S4000x64))
        (broadcastTo S4000x64 (shapeCast S1x64 b1 shapeCasts_S1x64_S1x64) broadcasts_S1x64_S4000x64))
      (broadcast S4000x64 (Scalar.ofBits (F := Ideal) .f32 0x00000000#32)) (ix2 p k)
      = max (h (ix2 p k) * dv (ix2 p (0 : Fin 1)) + b1 (ix2 (0 : Fin 1) k)) (Ideal.ofBits .f32 0x00000000#32) := by
  rw [shapeCast_self, shapeCast_self, shapeCast_self]
  show max (h (ix2 p k) * broadcastTo S4000x64 dv broadcasts_S4000x1_S4000x64 (ix2 p k)
      + broadcastTo S4000x64 b1 broadcasts_S1x64_S4000x64 (ix2 p k)) _ = _
  rw [Cert.Keepdims.broadcastTo_a1_ab_apply, broadcastTo_1b_ab_apply]
  rfl

/-- The head's stored block at `(p, q)`. -/
theorem head_apply (h : Vec Ideal S4000x64 .f32) (dv : Vec Ideal S4000x1 .f32) (b1 : Vec Ideal S1x64 .f32)
    (w mk : Vec Ideal S64x10 .f32) (b2 : Vec Ideal S1x10 .f32) (p : Fin 4000) (q : Fin 10) :
    k1_pay1 (F := Ideal) h dv b1 w mk b2 (ix2 p q)
      = (∑ k : Fin 64, max (h (ix2 p k) * dv (ix2 p (0 : Fin 1)) + b1 (ix2 (0 : Fin 1) k)) (Ideal.ofBits .f32 0x00000000#32)
          * (w (ix2 k q) * mk (ix2 k q))) + b2 (ix2 (0 : Fin 1) q) := by
  unfold k1_pay1
  rw [shapeCast_self b2]
  show matmul dot_S4000x64_S64x10_S4000x10_1_0_0_1_n_n none _ _ (constant (F := Ideal) S4000x10 .f32 0x00000000#32) (ix2 p q)
      + broadcastTo S4000x10 b2 broadcasts_S1x10_S4000x10 (ix2 p q) = _
  rw [Cert.Lib.ContractPlain.matmulZero_apply dot_S4000x64_S64x10_S4000x10_1_0_0_1_n_n rfl none _ _ p q,
    broadcastTo_1b_ab_apply]
  refine congrArg (· + b2 (ix2 (0 : Fin 1) q)) (Finset.sum_congr rfl fun k _ => ?_)
  refine congrArg (· * (w (ix2 k q) * mk (ix2 k q))) ?_
  exact activation_apply h dv b1 p k

end Cert.KernelIdeal.Body

end
-- ==== Proof.FeatureArray.lean ====
/-
  The first call's output array, whole: `h = x · (W ∘ M)`.

  The call runs over 25 grid points. Point `t` stages rows `4000 t … 4000 t + 3999` of `x` (all 512 columns), the whole
  of `W` and of `M`, and writes back rows `4000 t … 4000 t + 3999` of the result (all 64 columns). Entry `(p, q)` of the
  block written at `t` is `∑ k, x (4000 t + p, k) · (W (k, q) · M (k, q))`, which is entry `(4000 t + p, q)` of the one
  whole-array function `feat x W M`. The 25 row blocks cover the 100000 rows (row `r` is in the block of point
  `r / 4000`), so after the call the array IS `feat` of the arrays the call found.
-/
import proofs.«115146_j15264313770213_2_alg».proof.Proof.Gen.KernelIdeal.Frame
import proofs.«115146_j15264313770213_2_alg».proof.Proof.Payloads
import Idealize.ShloMosaic.Lib.Pipeline.Value
import Idealize.ShloMosaic.Lib.ValueIdx

set_option maxRecDepth 16384

noncomputable section

namespace Cert.KernelIdeal.Feature

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- The masked feature transform on whole arrays: entry `(r, q)` is `∑ k, x (r, k) · (W (k, q) · M (k, q))`. -/
def feat (x : S100000x512.Idx → EReal) (w mk : S512x64.Idx → EReal) : S100000x64.Idx → EReal :=
  fun i => ∑ k : Fin 512, x (ix2 (i 0) k) * (w (ix2 k (i 1)) * mk (ix2 k (i 1)))

variable (V : (c : Dev nD) → (b : Ref sig .tc) → Buf (Elt Ideal) ((c : Thread nD τ).loc b))

theorem zero2 : (![0, 0] : Fin 2 → Nat) = fun _ => 0 := funext fun a => by fin_cases a <;> rfl

/-- The printed index maps over the grid: `x`'s and the result's row block is the point's number, every other block
    coordinate is 0. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `feat` of the arrays the call found. -/
theorem flushed_eq (c : Dev nD) (t : Fin cfg0.N) :
    (dat0 V c).flushed 3 t
      = ((cfg0.win 3).blk t).view.read (Elt Ideal) (feat (V c main_arg0) (V c main_arg3) (V c main_arg4)) := by
  show (cfg0.win 3).cut (grid0.coords t) ((dat0 V c).after 3 t) = _
  rw [after0_3]
  unfold out0_3
  rw [View.canon_unit_zero zero2]
  simp only [View.ld_unit_zero (S := S512x64) zero2, View.ld_unit_zero (S := S4000x512) zero2]
  obtain ⟨e0, e1, e2, e3, e4, e5, e6, e7⟩ := blockIdx t
  funext j
  obtain ⟨p, q, rfl⟩ : ∃ (p : Fin 4000) (q : Fin 64), j = ix2 p q := ⟨j 0, j 1, eq_ix2 j⟩
  refine (Body.transform_apply _ _ _ p q).trans ?_
  show _ = feat (V c main_arg0) (V c main_arg3) (V c main_arg4) (((cfg0.win 3).blk t).view.emb (ix2 p q))
  unfold feat
  refine Finset.sum_congr rfl fun k _ => ?_
  have hp : p.val < 4000 := p.isLt
  have hq : q.val < 64 := q.isLt
  have hk : k.val < 512 := k.isLt
  have h0 : ((cfg0.win 0).blk t).view.emb (ix2 p k) = ix2 (((cfg0.win 3).blk t).view.emb (ix2 p q) 0) k := by
    funext a; apply Fin.ext
    match a with
    | ⟨0, _⟩ => show win0_0.index t (0 : Fin 2) * 4000 + 1 * p.val = win0_3.index t (0 : Fin 2) * 4000 + 1 * p.val; omega
    | ⟨1, _⟩ => show win0_0.index t (1 : Fin 2) * 512 + 1 * k.val = k.val; omega
  have h1 : ((cfg0.win 1).blk t).view.emb (ix2 k q) = ix2 k (((cfg0.win 3).blk t).view.emb (ix2 p q) 1) := by
    funext a; apply Fin.ext
    match a with
    | ⟨0, _⟩ => show win0_1.index t (0 : Fin 2) * 512 + 1 * k.val = k.val; omega
    | ⟨1, _⟩ => show win0_1.index t (1 : Fin 2) * 64 + 1 * q.val = win0_3.index t (1 : Fin 2) * 64 + 1 * q.val; omega
  have h2 : ((cfg0.win 2).blk t).view.emb (ix2 k q) = ix2 k (((cfg0.win 3).blk t).view.emb (ix2 p q) 1) := by
    funext a; apply Fin.ext
    match a with
    | ⟨0, _⟩ => show win0_2.index t (0 : Fin 2) * 512 + 1 * k.val = k.val; omega
    | ⟨1, _⟩ => show win0_2.index t (1 : Fin 2) * 64 + 1 * q.val = win0_3.index t (1 : Fin 2) * 64 + 1 * q.val; omega
  have a0 : (V c main_arg0 : S100000x512.Idx → EReal) (((cfg0.win 0).blk t).view.emb (ix2 p k))
      = (V c main_arg0 : S100000x512.Idx → EReal) (ix2 (((cfg0.win 3).blk t).view.emb (ix2 p q) 0) k) := congrArg _ h0
  have a1 : (V c main_arg3 : S512x64.Idx → EReal) (((cfg0.win 1).blk t).view.emb (ix2 k q))
      = (V c main_arg3 : S512x64.Idx → EReal) (ix2 k (((cfg0.win 3).blk t).view.emb (ix2 p q) 1)) := congrArg _ h1
  have a2 : (V c main_arg4 : S512x64.Idx → EReal) (((cfg0.win 2).blk t).view.emb (ix2 k q))
      = (V c main_arg4 : S512x64.Idx → EReal) (ix2 k (((cfg0.win 3).blk t).view.emb (ix2 p q) 1)) := congrArg _ h2
  exact congrArg₂ (· * ·) a0 (congrArg₂ (· * ·) a1 a2)

/-- An index of the result array is in point `t`'s block iff each coordinate is in the block's range on its axis. -/
theorem mem_blk (t : Fin cfg0.N) (i : S100000x64.Idx) :
    i ∈ ((cfg0.win 3).blk t).view.set
      ↔ ∀ a : Fin 2, win0_3.index t a * S4000x64.size a ≤ (i a).val ∧ (i a).val < win0_3.index t a * S4000x64.size a + S4000x64.size a := by
  show i ∈ ((View.whole main_v0).slice (win0_3.rect t)).set ↔ _
  rw [View.set_slice_whole, Rect.mem_set_unit]
  exact Iff.rfl

/-- Every index of the result array is in some point's block: row `r` in that of point `r / 4000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 4000, by show (i 0).val / 4000 < 25; omega⟩
  obtain ⟨-, -, -, -, -, -, e6, e7⟩ := blockIdx t
  have ht : t.val = (i 0).val / 4000 := rfl
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-- The result array after the call is `feat` of the arrays the call found. -/
theorem final (c : Dev nD) :
    (dat0 V c).arrAt 3 cfg0.N = feat (V c main_arg0) (V c main_arg3) (V c main_arg4) :=
  (dat0 V c).arrAt_eq_of_cover 3 _ (fun t _ => flushed_eq V c t) cover

end Cert.KernelIdeal.Feature

end
-- ==== Proof.HeadArray.lean ====
/-
  The second call's output array, whole: the classifier head.

  The call runs over 25 grid points. Point `t` stages rows `4000 t … 4000 t + 3999` of the aggregated features `a`
  (64 columns) and of the scaling column `dv` (one column), the whole bias row `b1`, the whole of `W` and of `M`
  (64 × 10) and the whole bias row `b2`, and writes back rows `4000 t … 4000 t + 3999` of the result (10 columns).
  Entry `(p, q)` of the block written at `t`, with `r = 4000 t + p`, is
  `(∑ k, max (a (r, k) · dv (r, 0) + b1 (0, k)) z · (W (k, q) · M (k, q))) + b2 (0, q)`: entry `(r, q)` of the one
  whole-array function `head a dv b1 W M b2`. The 25 row blocks cover the 100000 rows, so after the call the array IS
  `head` of the arrays the call found.
-/
import proofs.«115146_j15264313770213_2_alg».proof.Proof.Gen.KernelIdeal.Frame
import proofs.«115146_j15264313770213_2_alg».proof.Proof.Payloads
import Idealize.ShloMosaic.Lib.Pipeline.Value
import Idealize.ShloMosaic.Lib.ValueIdx

set_option maxRecDepth 16384

noncomputable section

namespace Cert.KernelIdeal.Head

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- The classifier head on whole arrays: entry `(r, q)` is
    `(∑ k, max (a (r, k) · dv (r, 0) + b1 (0, k)) z · (W (k, q) · M (k, q))) + b2 (0, q)`, `z` the zero word's value. -/
def head (a : S100000x64.Idx → EReal) (dv : S100000x1.Idx → EReal) (b1 : S1x64.Idx → EReal)
    (w mk : S64x10.Idx → EReal) (b2 : S1x10.Idx → EReal) : S100000x10.Idx → EReal :=
  fun i => (∑ k : Fin 64, max (a (ix2 (i 0) k) * dv (ix2 (i 0) (0 : Fin 1)) + b1 (ix2 (0 : Fin 1) k))
      (Ideal.ofBits .f32 0x00000000#32) * (w (ix2 k (i 1)) * mk (ix2 k (i 1)))) + b2 (ix2 (0 : Fin 1) (i 1))

variable (V : (c : Dev nD) → (b : Ref sig .tc) → Buf (Elt Ideal) ((c : Thread nD τ).loc b))

theorem zero2 : (![0, 0] : Fin 2 → Nat) = fun _ => 0 := funext fun a => by fin_cases a <;> rfl

/-- The printed index maps over the grid: the features', the scaling column's and the result's row block is the
    point's number, every other block coordinate is 0. -/
theorem blockIdx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of `head` of the arrays the call found. -/
theorem flushed_eq (c : Dev nD) (t : Fin cfg1.N) :
    (dat1 V c).flushed 6 t
      = ((cfg1.win 6).blk t).view.read (Elt Ideal)
          (head (V c main_v40) (V c main_v41) (V c main_v42) (V c main_arg6) (V c main_arg7) (V c main_v43)) := by
  show (cfg1.win 6).cut (grid1.coords t) ((dat1 V c).after 6 t) = _
  rw [after1_6]
  unfold out1_6
  rw [View.canon_unit_zero zero2]
  simp only [View.ld_unit_zero (S := S4000x64) zero2, View.ld_unit_zero (S := S4000x1) zero2,
    View.ld_unit_zero (S := S1x64) zero2, View.ld_unit_zero (S := S64x10) zero2, View.ld_unit_zero (S := S1x10) zero2]
  obtain ⟨e0, e1, e2, e3, e4, e5, e6, e7, e8, e9, e10, e11, e12, e13⟩ := blockIdx t
  funext j
  obtain ⟨p, q, rfl⟩ : ∃ (p : Fin 4000) (q : Fin 10), j = ix2 p q := ⟨j 0, j 1, eq_ix2 j⟩
  refine (Body.head_apply _ _ _ _ _ _ p q).trans ?_
  show _ = head (V c main_v40) (V c main_v41) (V c main_v42) (V c main_arg6) (V c main_arg7) (V c main_v43)
    (((cfg1.win 6).blk t).view.emb (ix2 p q))
  unfold head
  have hp : p.val < 4000 := p.isLt
  have hq : q.val < 10 := q.isLt
  have hb2 : ((cfg1.win 5).blk t).view.emb (ix2 (0 : Fin 1) q) = ix2 (0 : Fin 1) (((cfg1.win 6).blk t).view.emb (ix2 p q) 1) := by
    funext a; apply Fin.ext
    match a with
    | ⟨0, _⟩ => show win1_5.index t (0 : Fin 2) * 1 + 1 * 0 = 0; omega
    | ⟨1, _⟩ => show win1_5.index t (1 : Fin 2) * 10 + 1 * q.val = win1_6.index t (1 : Fin 2) * 10 + 1 * q.val; omega
  have ab2 : (V c main_v43 : S1x10.Idx → EReal) (((cfg1.win 5).blk t).view.emb (ix2 (0 : Fin 1) q))
      = (V c main_v43 : S1x10.Idx → EReal) (ix2 (0 : Fin 1) (((cfg1.win 6).blk t).view.emb (ix2 p q) 1)) := congrArg _ hb2
  refine congrArg₂ (· + ·) (Finset.sum_congr rfl fun k _ => ?_) ab2
  have hk : k.val < 64 := k.isLt
  have h0 : ((cfg1.win 0).blk t).view.emb (ix2 p k) = ix2 (((cfg1.win 6).blk t).view.emb (ix2 p q) 0) k := by
    funext a; apply Fin.ext
    match a with
    | ⟨0, _⟩ => show win1_0.index t (0 : Fin 2) * 4000 + 1 * p.val = win1_6.index t (0 : Fin 2) * 4000 + 1 * p.val; omega
    | ⟨1, _⟩ => show win1_0.index t (1 : Fin 2) * 64 + 1 * k.val = k.val; omega
  have h1 : ((cfg1.win 1).blk t).view.emb (ix2 p (0 : Fin 1)) = ix2 (((cfg1.win 6).blk t).view.emb (ix2 p q) 0) (0 : Fin 1) := by
    funext a; apply Fin.ext
    match a with
    | ⟨0, _⟩ => show win1_1.index t (0 : Fin 2) * 4000 + 1 * p.val = win1_6.index t (0 : Fin 2) * 4000 + 1 * p.val; omega
    | ⟨1, _⟩ => show win1_1.index t (1 : Fin 2) * 1 + 1 * 0 = 0; omega
  have h2 : ((cfg1.win 2).blk t).view.emb (ix2 (0 : Fin 1) k) = ix2 (0 : Fin 1) k := by
    funext a; apply Fin.ext
    match a with
    | ⟨0, _⟩ => show win1_2.index t (0 : Fin 2) * 1 + 1 * 0 = 0; omega
    | ⟨1, _⟩ => show win1_2.index t (1 : Fin 2) * 64 + 1 * k.val = k.val; omega
  have h3 : ((cfg1.win 3).blk t).view.emb (ix2 k q) = ix2 k (((cfg1.win 6).blk t).view.emb (ix2 p q) 1) := by
    funext a; apply Fin.ext
    match a with
    | ⟨0, _⟩ => show win1_3.index t (0 : Fin 2) * 64 + 1 * k.val = k.val; omega
    | ⟨1, _⟩ => show win1_3.index t (1 : Fin 2) * 10 + 1 * q.val = win1_6.index t (1 : Fin 2) * 10 + 1 * q.val; omega
  have h4 : ((cfg1.win 4).blk t).view.emb (ix2 k q) = ix2 k (((cfg1.win 6).blk t).view.emb (ix2 p q) 1) := by
    funext a; apply Fin.ext
    match a with
    | ⟨0, _⟩ => show win1_4.index t (0 : Fin 2) * 64 + 1 * k.val = k.val; omega
    | ⟨1, _⟩ => show win1_4.index t (1 : Fin 2) * 10 + 1 * q.val = win1_6.index t (1 : Fin 2) * 10 + 1 * q.val; omega
  have a0 : (V c main_v40 : S100000x64.Idx → EReal) (((cfg1.win 0).blk t).view.emb (ix2 p k))
      = (V c main_v40 : S100000x64.Idx → EReal) (ix2 (((cfg1.win 6).blk t).view.emb (ix2 p q) 0) k) := congrArg _ h0
  have a1 : (V c main_v41 : S100000x1.Idx → EReal) (((cfg1.win 1).blk t).view.emb (ix2 p (0 : Fin 1)))
      = (V c main_v41 : S100000x1.Idx → EReal) (ix2 (((cfg1.win 6).blk t).view.emb (ix2 p q) 0) (0 : Fin 1)) := congrArg _ h1
  have a2 : (V c main_v42 : S1x64.Idx → EReal) (((cfg1.win 2).blk t).view.emb (ix2 (0 : Fin 1) k))
      = (V c main_v42 : S1x64.Idx → EReal) (ix2 (0 : Fin 1) k) := congrArg _ h2
  have a3 : (V c main_arg6 : S64x10.Idx → EReal) (((cfg1.win 3).blk t).view.emb (ix2 k q))
      = (V c main_arg6 : S64x10.Idx → EReal) (ix2 k (((cfg1.win 6).blk t).view.emb (ix2 p q) 1)) := congrArg _ h3
  have a4 : (V c main_arg7 : S64x10.Idx → EReal) (((cfg1.win 4).blk t).view.emb (ix2 k q))
      = (V c main_arg7 : S64x10.Idx → EReal) (ix2 k (((cfg1.win 6).blk t).view.emb (ix2 p q) 1)) := congrArg _ h4
  exact congrArg₂ (· * ·)
    (congrArg (fun v : EReal => max v (Ideal.ofBits .f32 0x00000000#32)) (congrArg₂ (· + ·) (congrArg₂ (· * ·) a0 a1) a2))
    (congrArg₂ (· * ·) a3 a4)

/-- An index of the result array is in point `t`'s block iff each coordinate is in the block's range on its axis. -/
theorem mem_blk (t : Fin cfg1.N) (i : S100000x10.Idx) :
    i ∈ ((cfg1.win 6).blk t).view.set
      ↔ ∀ a : Fin 2, win1_6.index t a * S4000x10.size a ≤ (i a).val ∧ (i a).val < win1_6.index t a * S4000x10.size a + S4000x10.size a := by
  show i ∈ ((View.whole main_v44).slice (win1_6.rect t)).set ↔ _
  rw [View.set_slice_whole, Rect.mem_set_unit]
  exact Iff.rfl

/-- Every index of the result array is in some point's block: row `r` in that of point `r / 4000`. -/
theorem cover (i : S100000x10.Idx) :
    ∃ t : Fin cfg1.N, (cfg1.win 6).flush t = true ∧ i ∈ ((cfg1.win 6).blk t).view.set := by
  have hi0 : (i 0).val < 100000 := (i 0).isLt
  have hi1 : (i 1).val < 10 := (i 1).isLt
  let t : Fin cfg1.N := ⟨(i 0).val / 4000, by show (i 0).val / 4000 < 25; omega⟩
  obtain ⟨-, -, -, -, -, -, -, -, -, -, -, -, e12, e13⟩ := blockIdx t
  have ht : t.val = (i 0).val / 4000 := rfl
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 10 ≤ (i 1).val ∧ (i 1).val < win1_6.index t (1 : Fin 2) * 10 + 10; omega

/-- The result array after the call is `head` of the arrays the call found. -/
theorem final (c : Dev nD) :
    (dat1 V c).arrAt 6 cfg1.N
      = head (V c main_v40) (V c main_v41) (V c main_v42) (V c main_arg6) (V c main_arg7) (V c main_v43) :=
  (dat1 V c).arrAt_eq_of_cover 6 _ (fun t _ => flushed_eq V c t) cover

end Cert.KernelIdeal.Head

end
-- ==== Proof.LibFoldConcat.lean ====
/-
  Folding a straight line of host operations through concatenations.

  The contents a buffer holds after a line of host operations are a fold of the operations' results over the launch
  contents, and the library's result lemmas rewrite that fold one operation at a time. Two kinds of concatenation stop
  the rewriting, and the two facts here let it go on:

  * an operation on a LITERAL family of three references (three arrays laid end to end): the library states such an
    operation's result with the operands read under a binder, `fun k => V ↑(![x, a, b] k)`, where no result lemma
    applies; `nary3_result'` states it with each operand's contents at its own reference (the three-operand analogue of
    the library's lemma for four);
  * a two-piece concatenation `concatenate t a [⟨s1, x1⟩, ⟨s2, x2⟩] hc`: its side condition `hc` is stated over the list
    of pieces, so a rewriting pass cannot enter the pieces; `cat2` is the same value with each piece an argument of its
    own, and `cat2_fold` turns the one into the other (by definition), after which the pieces are rewritten like any
    other argument.

  Use: add `nary3_result'` and `cat2_fold` to the `simp (disch := decide) only [after_cons, after_nil, …_result', …_result_ne']`
  pass that computes `StableHlo.after ops V ↑b`, and close against the composed term by `rfl` (`cat2` unfolds).
-/
import Idealize.ShloMosaic.Lib.StableHlo.Run

noncomputable section

namespace Cert.Lib.FoldConcat

open Idealize.ShloMosaic Idealize.ShloMosaic.TcCoe Idealize.ShloMosaic.StableHlo

variable {τ : Topo} {sig : RefSig} {Val : EltTy → Type}

/-- An operation on a literal family of three references: its result with each operand's contents at its own reference. -/
theorem nary3_result' {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- Two pieces laid side by side along an axis, each piece an argument of its own. -/
def cat2 {α : Type} (t : Shape) (a : Fin t.rank) (s1 s2 : Shape) (x1 : s1.Idx → α) (x2 : s2.Idx → α)
    (hc : Shape.Concatenates [s1, s2] t a) : t.Idx → α :=
  concatenate t a [⟨s1, x1⟩, ⟨s2, x2⟩] hc

/-- The library's two-piece concatenation is `cat2` of its pieces. -/
theorem cat2_fold {α : Type} (t : Shape) (a : Fin t.rank) (s1 s2 : Shape) (x1 : s1.Idx → α) (x2 : s2.Idx → α)
    (hc : Shape.Concatenates [s1, s2] t a) : concatenate t a [⟨s1, x1⟩, ⟨s2, x2⟩] hc = cat2 t a s1 s2 x1 x2 hc := rfl

end Cert.Lib.FoldConcat

end
-- ==== Proof.LibColumnInDim.lean ====
/-
  The column forms of `broadcast_in_dim`, read at an index given by coordinates: a vector `[n]` laid as the column
  `[n, 1]` (its axis sent to axis 0), and a column `[n, 1]` repeated along the rows to `[n, b]` (axes sent to
  themselves). This is how a per-row quantity — a row sum, a norm, a degree — is spread over a matrix when it is
  written `v[:, None]`: both read the operand at the row coordinate alone. (`n ≠ 1`: on an axis of extent one
  a broadcast reads coordinate 0 whatever the index, and the statements would need no hypothesis but another proof.)
-/
import Idealize.ShloMosaic.Lib.Pipeline.Value
import Idealize.ShloMosaic.Lib.ValueIdx

namespace Cert.Lib.ColumnInDim

open Idealize.ShloMosaic Idealize.ShloMosaic.ValueIdx

variable {α : Type}

/-- A vector `[n]` laid as the column `[n, 1]` reads, at `(P, u)`, the vector at `P`. -/
theorem column_apply {n : ℕ} (hn : n ≠ 1) (h : (⟨1, ![n]⟩ : Shape).BroadcastsInDim ⟨2, ![n, 1]⟩ ![0])
    (v : (⟨1, ![n]⟩ : Shape).Idx → α) (P : Fin n) (u : Fin 1) :
    broadcastInDim ⟨2, ![n, 1]⟩ ![0] h v (ix2 P u) = v (ix1 P) :=
  broadcastInDim_apply _ h v (ix2 P u) (ix1 P) (fun a => match a with
    | ⟨0, _⟩ => by show P.val = if n = 1 then 0 else P.val; rw [if_neg hn])

/-- A column `[n, 1]` repeated along the rows to `[n, b]` reads, at `(P, q)`, the column's entry of row `P`. -/
theorem spread_apply {n b : ℕ} (hn : n ≠ 1) (h : (⟨2, ![n, 1]⟩ : Shape).BroadcastsInDim ⟨2, ![n, b]⟩ ![0, 1])
    (v : (⟨2, ![n, 1]⟩ : Shape).Idx → α) (P : Fin n) (q : Fin b) :
    broadcastInDim ⟨2, ![n, b]⟩ ![0, 1] h v (ix2 P q) = v (ix2 P (0 : Fin 1)) :=
  broadcastInDim_apply _ h v (ix2 P q) (ix2 P (0 : Fin 1)) (fun a => match a with
    | ⟨0, _⟩ => by show P.val = if n = 1 then 0 else P.val; rw [if_neg hn]
    | ⟨1, _⟩ => by show 0 = if (1 : ℕ) = 1 then 0 else q.val; rw [if_pos rfl])

end Cert.Lib.ColumnInDim
-- ==== Proof.Spread.lean ====
/-
  A per-edge quantity against the gathered feature rows.

  The reference multiplies the gathered rows `h[src]` (3300000 × 64) by a per-edge factor `v` written `v[:, None]`:
  the vector laid as a column and the column repeated along the 64 features. `spread v` is that array; it reads `v e`
  at `(e, j)`.

  With it the reference's aggregation is, by definition of its stages, the segment sum by `dst` of
  `h[src] · spread ((dis[src] · w) · dis[dst])`. (At any float instance: nothing here computes with the values.)
-/
import proofs.«115146_j15264313770213_2_alg».proof.Proof.Gen.ReferenceIdeal.Read
import proofs.«115146_j15264313770213_2_alg».proof.Proof.LibColumnInDim
import Idealize.ShloMosaic.Lib.ValueIdx

noncomputable section

namespace Cert.ReferenceIdeal.Segment

open Idealize.ShloMosaic Idealize.ShloMosaic.ValueIdx Cert.ReferenceIdeal Cert.ReferenceIdeal.Read
open Cert.ReferenceIdeal.Facts₀ Cert.ReferenceIdeal.Facts

/-- A per-edge quantity spread over the 64 feature columns: `v[:, None]` against a `[3300000, 64]` array. -/
def spread {α : Type} (v : S3300000.Idx → α) : S3300000x64.Idx → α :=
  broadcastInDim S3300000x64 ![0, 1] bcast_S3300000x1_S3300000x64_0_1
    (broadcastInDim S3300000x1 ![0] bcast_S3300000_S3300000x1_0 v)

theorem spread_apply {α : Type} (v : S3300000.Idx → α) (e : Fin 3300000) (j : Fin 64) : spread v (ix2 e j) = v (ix1 e) := by
  unfold spread
  rw [Cert.Lib.ColumnInDim.spread_apply (by decide), Cert.Lib.ColumnInDim.column_apply (by decide)]

variable {F : FTy → Type} [FloatOps F]

/-- The reference's aggregation, its stages unfolded to the segment sum they are. -/
theorem aggregate_unfold (x0 : (⟨S100000x512, .f32⟩ : BufTy).Contents (Elt F)) (x1 : (⟨S2x3200000, .i32⟩ : BufTy).Contents (Elt F))
    (x2 : (⟨S3200000, .f32⟩ : BufTy).Contents (Elt F)) (x3 x4 : (⟨S512x64, .f32⟩ : BufTy).Contents (Elt F)) :
    val_main_v48 (F := F) x0 x1 x2 x3 x4
      = Host.scatterAdd scatter_S100000x64_S3300000x1_S3300000x64_1_0_0_1 (val_main_v46 (F := F)) (val_main_v47 (F := F) x1)
          (mulf (val_main_v42 (F := F) x0 x1 x3 x4) (spread (val_main_v35 (F := F) x1 x2))) := rfl

end Cert.ReferenceIdeal.Segment

end
-- ==== Proof.HostStage.lean ====
/-
  What the second call finds in its input arrays.

  Between the two calls @main runs its host operations on the first call's result `hK` and on the arguments. They are,
  operation for operation, the reference's own: the edge list's two rows with the self loops appended (`src`, `dst`),
  the weights with ones appended (`w`), the weighted in-degree (a segment sum of `w` by `dst`), its inverse square root
  `dis` (zero where the degree is not positive), and the per-edge factor `dis[src] · w`. So each array the second call
  reads is stated here over the reference's stages of the same arguments:
    the aggregated features: the segment sum by `dst` of `hK[src] · (dis[src] · w)` — the reference's sum has one more
      factor, `dis[dst]`, in each summand —,
    the scaling column: `dis` laid as a column,
    the two bias rows: `b1` and `b2` laid as rows,
    and the two weight arrays, untouched.
  Each is read off the fold of the boundary contents by rewriting the operations' results in order. The statements hold
  at any float instance: nothing here computes with the values.
-/
import proofs.«115146_j15264313770213_2_alg».proof.Proof.Gen.KernelIdeal.Frame
import proofs.«115146_j15264313770213_2_alg».proof.Proof.Gen.ReferenceIdeal.Read
import proofs.«115146_j15264313770213_2_alg».proof.Proof.LibFoldConcat
import proofs.«115146_j15264313770213_2_alg».proof.Proof.Spread
import Idealize.ShloMosaic.Lib.StableHlo.Run

set_option maxRecDepth 16384

noncomputable section

namespace Cert.KernelIdeal.Stage

open Idealize.ShloMosaic Idealize.ShloMosaic.TcCoe Idealize.SL.Sem Idealize.ShloMosaic.StableHlo
open Cert.KernelIdeal Cert.KernelIdeal.Gen
open Cert.ReferenceIdeal.Read

/-- The fold of the operations' results at one buffer, computed in one rewriting pass that also enters the pieces of a
    two-piece concatenation. -/
macro "fold_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.Lib.FoldConcat.cat2_fold]))

variable {F : FTy → Type} [FloatOps F]
variable (m : (ℓ : Loc nD τ sig) → Buf (Elt F) ℓ) (ρ : Dev nD → PrngReg)

/-- The scaling column is `dis` of the edge list and the weights, laid as a column. -/
theorem column_eq (c : Dev nD) :
    V4 m ρ c main_v41
      = shapeCast S100000x1 (val_main_v19 (F := F) (W1 m ρ c (Proc.devRef .tc main_arg1)) (W1 m ρ c (Proc.devRef .tc main_arg2)))
          shapeCasts_S100000_S100000x1 := by
  show StableHlo.after hostOps1_2 (StableHlo.after hostOps1_1 (StableHlo.after hostOps1 (W1 m ρ c))) (Proc.devRef .tc main_v41) = _
  fold_results
  rfl

/-- The aggregated features: the segment sum by `dst` of the gathered rows of the first call's result, each times the
    per-edge factor `dis[src] · w` spread over the 64 columns. -/
theorem aggregate_eq (c : Dev nD) :
    V4 m ρ c main_v40
      = Host.scatterAdd Cert.ReferenceIdeal.scatter_S100000x64_S3300000x1_S3300000x64_1_0_0_1 (val_main_v46 (F := F))
          (val_main_v47 (F := F) (W1 m ρ c (Proc.devRef .tc main_arg1)))
          (mulf (extf .f32 (Host.gather Cert.ReferenceIdeal.gather_S100000x64_S3300000x1_S3300000x64_1_0_n_n_0_1_164
              (W1 m ρ c (Proc.devRef .tc main_v0)) (val_main_v41 (F := F) (W1 m ρ c (Proc.devRef .tc main_arg1)))) bitsLt_bf16_f32)
            (Cert.ReferenceIdeal.Segment.spread
              (val_main_v27 (F := F) (W1 m ρ c (Proc.devRef .tc main_arg1)) (W1 m ρ c (Proc.devRef .tc main_arg2))))) := by
  show StableHlo.after hostOps1_2 (StableHlo.after hostOps1_1 (StableHlo.after hostOps1 (W1 m ρ c))) (Proc.devRef .tc main_v40) = _
  fold_results
  rfl

/-- The first bias row is `b1` laid as a row. -/
theorem bias1_eq (c : Dev nD) :
    V4 m ρ c main_v42 = shapeCast S1x64 (W1 m ρ c (Proc.devRef .tc main_arg5)) shapeCasts_S64_S1x64 := by
  show StableHlo.after hostOps1_2 (StableHlo.after hostOps1_1 (StableHlo.after hostOps1 (W1 m ρ c))) (Proc.devRef .tc main_v42) = _
  fold_results
  rfl

/-- The second bias row is `b2` laid as a row. -/
theorem bias2_eq (c : Dev nD) :
    V4 m ρ c main_v43 = shapeCast S1x10 (W1 m ρ c (Proc.devRef .tc main_arg8)) shapeCasts_S10_S1x10 := by
  show StableHlo.after hostOps1_2 (StableHlo.after hostOps1_1 (StableHlo.after hostOps1 (W1 m ρ c))) (Proc.devRef .tc main_v43) = _
  fold_results
  rfl

/-- No host operation writes the classifier's weight array … -/
theorem weight_eq (c : Dev nD) : V4 m ρ c main_arg6 = W1 m ρ c (Proc.devRef .tc main_arg6) := by
  show StableHlo.after hostOps1_2 (StableHlo.after hostOps1_1 (StableHlo.after hostOps1 (W1 m ρ c))) (Proc.devRef .tc main_arg6) = _
  fold_results

/-- … nor its mask. -/
theorem mask_eq (c : Dev nD) : V4 m ρ c main_arg7 = W1 m ρ c (Proc.devRef .tc main_arg7) := by
  show StableHlo.after hostOps1_2 (StableHlo.after hostOps1_1 (StableHlo.after hostOps1 (W1 m ρ c))) (Proc.devRef .tc main_arg7) = _
  fold_results

/-- After the first call an argument array is as launched (the call writes only its result). -/
theorem arg_kept (c : Dev nD) (b : Ref sig .tc) (hb : ∀ w, Pipeline.arrRef spec0 w ≠ b) :
    W1 m ρ c (Proc.devRef .tc b) = m ((c : Thread nD τ).loc b) :=
  W1_of_ne m ρ c b hb

/-- After the first call its result buffer holds its output array after all the write-backs. -/
theorem feature_eq (c : Dev nD) : W1 m ρ c (Proc.devRef .tc main_v0) = (dat0 (V0 m ρ) c).arrAt 3 cfg0.N :=
  W1_arr m ρ c 3

end Cert.KernelIdeal.Stage

end
-- ==== Proof.LibScatterLaw.lean ====
/-
  A factor that is constant on each segment comes out of a segment sum.

  The host's accumulating scatter, on the extended reals, gives each operand element the operand's own value plus the
  sum of the updates that land on it. Suppose every update that lands on element `i` carries one common right factor
  `c i` — the update is `a · c i` — and the operand is zero. Then the scattered value at `i` is the scatter of the
  bare `a`'s, times `c i`: `(∑ a) · c = ∑ (a · c)`.

  On the extended reals multiplication does not distribute over addition in general (`(⊤ + ⊥) · c` against
  `⊤ · c + ⊥ · c` for a negative `c`), but it does for a factor `c` with `0 ≤ c < ⊤`, whatever the summands are.
  That is the only hypothesis on `c`; nothing is asked of the updates.
-/
import Idealize.ShloMosaic.PureOps.Ideal

noncomputable section

namespace Cert.Lib.ScatterLaw

open Idealize.ShloMosaic

/-- A finite sum of extended reals times a factor `0 ≤ c < ⊤` is the sum of the products. -/
theorem sum_mul_of_nonneg_of_ne_top {ι : Type} (s : Finset ι) (f : ι → EReal) {c : EReal} (h0 : 0 ≤ c) (htop : c ≠ ⊤) :
    (∑ u ∈ s, f u) * c = ∑ u ∈ s, f u * c := by
  classical
  induction s using Finset.induction_on with
  | empty => simp
  | insert a s ha ih =>
    rw [Finset.sum_insert ha, Finset.sum_insert ha, EReal.right_distrib_of_nonneg_of_ne_top h0 htop, ih]

/-- The accumulating scatter into a zero operand: if each update landing on `i` is `updK u · c i` with
    `0 ≤ c i < ⊤`, the scatter of those updates at `i` is the scatter of the `updK`'s at `i`, times `c i`. -/
theorem hostScatterAdd_mul {s si su : Shape} (d : ScatterDims s si su) {w : Nat} (x0 : s.Idx → EReal)
    (idx : IVec si w) (updK updR : su.Idx → EReal) (c : s.Idx → EReal) (i : s.Idx) (hx0 : x0 i = 0)
    (h0 : 0 ≤ c i) (htop : c i ≠ ⊤)
    (h : ∀ u, d.resultIdx? u idx = some i → updR u = updK u * c i) :
    Ideal.hostScatterAdd d x0 idx updR i = Ideal.hostScatterAdd d x0 idx updK i * c i := by
  unfold Ideal.hostScatterAdd
  rw [hx0, zero_add, zero_add, sum_mul_of_nonneg_of_ne_top _ _ h0 htop]
  exact Finset.sum_congr rfl fun u hu => h u (Finset.mem_filter.mp hu).2

end Cert.Lib.ScatterLaw

end
-- ==== Proof.LibSegmentIndex.lean ====
/-
  Indexing by a column of integers, read at an entry: the two halves of a segment sum.

  `x[idx]` for a flat array `x : [N]` and a column of signed integers `idx : [E, 1]` is a gather: entry `e` of the
  result is `x` at `idx[e, 0]` read as a signed integer and clamped into `[0, N − 1]`.

  Rows `upd : [E, C]` added into `[N, C]` at the rows a column `idx : [E, 1]` names is a scatter: update `(e, j)`
  lands on `(idx[e, 0], j)` with `idx[e, 0]` read signed and NOT clamped, and is dropped when that row is outside
  `[0, N)`. So whenever update `(e, j)` lands on `(n, k)`, the signed value of `idx[e, 0]` is `n` and `j = k`.

  Together: a gather through the same column at an entry whose update lands on row `n` reads `x` at `n` — the
  clamp is the identity on a row that is in range.
-/
import Idealize.ShloMosaic.Lib.ValueIdx
import Idealize.ShloMosaic.PureOps.ShapeOps

namespace Cert.Lib.SegmentIndex

open Idealize.ShloMosaic Idealize.ShloMosaic.ValueIdx

variable {α : Type}

/-! ## The gather of a flat array through a column of indices -/

/-- The dimension numbers of `x[idx]` for `x : [N]`, `idx : [E, 1]`, result `[E]`: the operand's one axis collapsed
    and indexed, one-element slices, the index vector along axis 1. -/
abbrev colGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the operand at `idx[e, 0]`, read signed and clamped into `[0, N − 1]`. -/
theorem gather_col_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (colGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (colGatherDims N E wf).start (ix1 e) idx 0 + (colGatherDims N E wf).batchCoord (ix1 e) 0
    + (colGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colGatherDims N E wf).startIndexMap from List.mem_singleton.mpr rfl)]
  have hsi : (colGatherDims N E wf).siIdx (ix1 e) ⟨List.idxOf (0 : Fin 1) (colGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows scattered at the rows a column of indices names -/

/-- The dimension numbers of `zeros([N, C]).at[idx].add(upd)` for `idx : [E, 1]`, `upd : [E, C]`: the updates' axis 1
    is the window axis, the operand's axis 0 is inserted and indexed, the index vector along axis 1. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where update `(e, j)` lands: if on `(n, k)`, then `idx[e, 0]` read signed is `n`, and `j = k`. -/
theorem resultIdx_rows {N C E w : Nat}
    (wf : ScatterDims.WF ⟨2, ![N, C]⟩ ⟨2, ![E, 1]⟩ ⟨2, ![E, C]⟩ [1] [0] [0] 1)
    (idx : IVec ⟨2, ![E, 1]⟩ w) (e : Fin E) (j : Fin C) (n : Fin N) (k : Fin C)
    (h : (rowScatterDims N C E wf).resultIdx? (ix2 e j) idx = some (ix2 n k)) :
    (idx (ix2 e (0 : Fin 1))).toInt = (n.val : Int) ∧ j = k := by
  have hs0 : (rowScatterDims N C E wf).start (ix2 e j) idx 0 = (idx (ix2 e (0 : Fin 1))).toInt := by
    unfold ScatterDims.start
    rw [dif_pos (show (0 : Fin 2) ∈ (rowScatterDims N C E wf).scatterDimsToOperandDims from List.mem_singleton.mpr rfl)]
    have hsi : (rowScatterDims N C E wf).siIdx (ix2 e j)
        ⟨List.idxOf (0 : Fin 2) (rowScatterDims N C E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N C E wf).start (ix2 e j) idx 1 = 0 := by
    unfold ScatterDims.start
    have hmem : (1 : Fin 2) ∉ (rowScatterDims N C E wf).scatterDimsToOperandDims := by
      show (1 : Fin 2) ∉ ([0] : List (Fin 2)); decide
    rw [dif_neg hmem]
  have hw0 : (rowScatterDims N C E wf).window (ix2 e j) 0 = 0 := by
    unfold ScatterDims.window
    have hmem : (0 : Fin 2) ∉ (rowScatterDims N C E wf).sKept := by
      show (0 : Fin 2) ∉ (List.finRange 2).filter (· ∉ ([0] : List (Fin 2))); decide
    rw [dif_neg hmem]
  have hw1 : (rowScatterDims N C E wf).window (ix2 e j) 1 = j.val := by
    unfold ScatterDims.window
    have hmem : (1 : Fin 2) ∈ (rowScatterDims N C E wf).sKept := by
      show (1 : Fin 2) ∈ (List.finRange 2).filter (· ∉ ([0] : List (Fin 2))); decide
    rw [dif_pos hmem]
    rfl
  unfold ScatterDims.resultIdx? at h
  split at h
  · have hi := Option.some.inj h
    have h0 : ((rowScatterDims N C E wf).start (ix2 e j) idx 0 + (rowScatterDims N C E wf).window (ix2 e j) 0).toNat
        = n.val := congrArg (fun f : (⟨2, ![N, C]⟩ : Shape).Idx => (f 0).val) hi
    have h1 : ((rowScatterDims N C E wf).start (ix2 e j) idx 1 + (rowScatterDims N C E wf).window (ix2 e j) 1).toNat
        = k.val := congrArg (fun f : (⟨2, ![N, C]⟩ : Shape).Idx => (f 1).val) hi
    rename_i hall
    have hb0 := (hall 0).1
    rw [hs0, hw0] at h0 hb0
    rw [hs1, hw1] at h1
    refine ⟨by omega, Fin.ext (by omega)⟩
  · cases h

end Cert.Lib.SegmentIndex
-- ==== Proof.DestinationFactor.lean ====
/-
  Reading the reference's per-edge quantities at an edge.

  The gather `dis[dst e]` first wraps a negative index by adding 100000 and then clamps into `[0, 99999]`. For an edge
  whose destination word, read signed, is a node `n` (`0 ≤ n < 100000`) the word is not negative, so the wrap is the
  identity, and `n` is in range, so the clamp is the identity: `dis[dst e] = dis n`.
-/
import proofs.«115146_j15264313770213_2_alg».proof.Proof.Gen.ReferenceIdeal.Read
import proofs.«115146_j15264313770213_2_alg».proof.Proof.LibSegmentIndex
import proofs.«115146_j15264313770213_2_alg».proof.Proof.Spread
import Idealize.ShloMosaic.Lib.Affine
import Idealize.ShloMosaic.Lib.ValueIdx

noncomputable section

namespace Cert.ReferenceIdeal.Segment

open Idealize.ShloMosaic Idealize.ShloMosaic.ValueIdx Cert.ReferenceIdeal Cert.ReferenceIdeal.Read
open Cert.ReferenceIdeal.Facts₀ Cert.ReferenceIdeal.Facts

/-- The index wrap `i < 0 ? i + 100000 : i` is the identity on a word whose signed value is not negative. -/
theorem wrap_of_nonneg (a : BitVec 32) (h : 0 ≤ a.toInt) :
    Scalar.select (IntOp.cmpi .slt a 0#32) (IntOp.addi a 100000#32) a = a := by
  have hc : ¬ IntOp.cmpi .slt a 0#32 = 1 := fun hc => by
    have h' : a.toInt < (0#32 : BitVec 32).toInt := IntOp.cmpi_slt.mp hc
    have h0 : (0#32 : BitVec 32).toInt = 0 := by decide
    omega
  unfold Scalar.select
  rw [if_neg hc]

/-- For an edge whose destination word, read signed, is the node `n`: `dis[dst e] = dis n`. -/
theorem dis_at_dst (x1 : (⟨S2x3200000, .i32⟩ : BufTy).Contents (Elt Ideal)) (x2 : (⟨S3200000, .f32⟩ : BufTy).Contents (Elt Ideal))
    (e : Fin 3300000) (n : Fin 100000)
    (h : (val_main_v47 (F := Ideal) x1 (ix2 e (0 : Fin 1))).toInt = (n.val : Int)) :
    val_main_v34 (F := Ideal) x1 x2 (ix1 e) = val_main_v19 (F := Ideal) x1 x2 (ix1 n) := by
  have h47 : val_main_v47 (F := Ideal) x1 (ix2 e (0 : Fin 1)) = val_main_v8 (F := Ideal) x1 (ix1 e) := by
    rw [val_main_v47_apply]
    exact congrArg _ (funext fun a => Fin.ext (by match a with | ⟨0, _⟩ => rfl))
  rw [h47] at h
  have h33 : val_main_v33 (F := Ideal) x1 (ix2 e (0 : Fin 1)) = val_main_v8 (F := Ideal) x1 (ix1 e) := by
    have hi : idx_main_v33 (ix2 e (0 : Fin 1)) = ix1 e := funext fun a => Fin.ext (by match a with | ⟨0, _⟩ => rfl)
    rw [val_main_v33_apply, hi, val_main_v32_apply, val_main_v29_apply, val_main_v31_apply, val_main_v28_apply,
      val_main_c_5_apply, val_main_v30_apply, val_main_c_6_apply]
    exact wrap_of_nonneg _ (by rw [h]; exact Int.natCast_nonneg _)
  have hgat := Cert.Lib.SegmentIndex.gather_col_apply (N := 100000) (E := 3300000) (by decide)
    (show GatherDims.WF ⟨1, ![100000]⟩ ⟨2, ![3300000, 1]⟩ ⟨1, ![3300000]⟩ [] [0] [] [0] [] 1 ![1] from gather_S100000_S3300000x1_S3300000_n_0_n_n_0_1_1.wf)
    (val_main_v19 (F := Ideal) x1 x2) (val_main_v33 (F := Ideal) x1) e
  refine (show val_main_v34 (F := Ideal) x1 x2 (ix1 e) = _ from hgat).trans ?_
  refine congrArg _ (congrArg ix1 (Fin.ext ?_))
  show min (val_main_v33 (F := Ideal) x1 (ix2 e (0 : Fin 1))).toInt.toNat (100000 - 1) = n.val
  have hn : n.val < 100000 := n.isLt
  rw [h33, h]
  omega

end Cert.ReferenceIdeal.Segment

end
-- ==== Proof.DegreeFactor.lean ====
/-
  The normalising factor `dis` is a non-negative real.

  `dis n = rsqrt (max (deg n) ε)` where the weighted degree is positive, and the zero word elsewhere; `ε` is the word
  `0x2B8CBCCC`, the positive real `9223372 · 2⁻⁶³` (the float nearest `10⁻¹²`). Whatever the degree is — any extended
  real, the infinities included — `max (deg n) ε` is at least `ε > 0`, so it is a positive real or `⊤`; the inverse
  square root of a positive real is a positive real, and of `⊤` it is `0`. Hence `0 ≤ dis n < ⊤` with no hypothesis
  on the inputs: exactly what lets a factor `dis n` come out of a sum of extended reals.
-/
import proofs.«115146_j15264313770213_2_alg».proof.Proof.Gen.ReferenceIdeal.Read

noncomputable section

namespace Cert.ReferenceIdeal.Degree

open Idealize.ShloMosaic Cert.ReferenceIdeal Cert.ReferenceIdeal.Read

/-- The floor `ε` under the degree is a positive real. -/
theorem floor_pos : ∃ r : ℝ, 0 < r ∧ Ideal.ofBits .f32 0x2B8CBCCC#32 = (r : EReal) := by
  refine ⟨(9223372 : ℝ) * (2 : ℝ) ^ (-63 : ℤ), by positivity, ?_⟩
  simp [Ideal.ofBits, Ideal.ieee, -EReal.coe_mul]

/-- The inverse square root of anything floored at a positive real is a non-negative real. -/
theorem rsqrt_floor_mem (y : EReal) {r : ℝ} (hr : 0 < r) :
    0 ≤ Ideal.rsqrt (max y (r : EReal)) ∧ Ideal.rsqrt (max y (r : EReal)) ≠ ⊤ := by
  have key : ∀ a : ℝ, 0 < a → 0 ≤ Ideal.rsqrt (a : EReal) ∧ Ideal.rsqrt (a : EReal) ≠ ⊤ := by
    intro a ha
    rw [Ideal.rsqrt_coe, if_neg (not_lt.mpr ha.le), if_neg ha.ne']
    exact ⟨EReal.coe_nonneg.mpr (inv_nonneg.mpr (Real.sqrt_nonneg a)), EReal.coe_ne_top _⟩
  induction y using EReal.rec with
  | bot => rw [max_eq_right bot_le]; exact key r hr
  | coe a =>
    rcases le_total a r with h | h
    · rw [max_eq_right (EReal.coe_le_coe_iff.mpr h)]; exact key r hr
    · rw [max_eq_left (EReal.coe_le_coe_iff.mpr h)]; exact key a (lt_of_lt_of_le hr h)
  | top => rw [max_eq_left le_top, Ideal.rsqrt_top]; exact ⟨le_refl 0, EReal.zero_ne_top⟩

/-- `0 ≤ dis n < ⊤` at every node `n`, for any edge list and any weights. -/
theorem dis_mem (x1 : (⟨S2x3200000, .i32⟩ : BufTy).Contents (Elt Ideal)) (x2 : (⟨S3200000, .f32⟩ : BufTy).Contents (Elt Ideal))
    (i : S100000.Idx) : 0 ≤ val_main_v19 (F := Ideal) x1 x2 i ∧ val_main_v19 (F := Ideal) x1 x2 i ≠ ⊤ := by
  rw [val_main_v19_apply]
  unfold Scalar.select
  split
  · obtain ⟨r, hr, he⟩ := floor_pos
    rw [val_main_v18_apply, val_main_v17_apply, val_main_v16_apply, val_main_cst_2_apply,
      Ideal.hostUnary_rsqrt_def, Ideal.maximumf_def, Ideal.ofBits_def, he]
    exact rsqrt_floor_mem _ hr
  · rw [val_main_call0_v1_apply, val_main_call0_v0_apply, val_main_cst_3_apply, Ideal.ofBits_def, Ideal.ofBits_zero_f32]
    exact ⟨le_refl 0, EReal.zero_ne_top⟩

end Cert.ReferenceIdeal.Degree

end
-- ==== Proof.SegmentSum.lean ====
/-
  The destination's normalising factor comes out of the aggregation.

  The reference aggregates, for node `n` and feature `k`,
      ∑ over edges e landing on n of  g (e, k) · ((dis[src e] · w e) · dis[dst e]),
  where `g` is the gathered feature row and an edge lands on `n` when its destination word, read signed, is `n` with
  `0 ≤ n < 100000` (the scatter neither wraps nor clamps; other edges are dropped). The gather `dis[dst e]` first wraps
  a negative index by adding 100000 and then clamps into range; for an edge that lands on `n` the destination word is
  the non-negative `n`, so the wrap and the clamp are both the identity and `dis[dst e] = dis n`.

  Every summand of node `n` therefore carries the one right factor `dis n`; by associativity of the product each is
  `(g (e, k) · (dis[src e] · w e)) · dis n`, and since `0 ≤ dis n < ⊤` the factor comes out of the sum:
      reference's aggregate (n, k) = (∑ over the same edges of g (e, k) · (dis[src e] · w e)) · dis n.
  The sum on the right is what the kernel aggregates on the host; the factor is what its second call multiplies by.
-/
import proofs.«115146_j15264313770213_2_alg».proof.Proof.Gen.ReferenceIdeal.Read
import proofs.«115146_j15264313770213_2_alg».proof.Proof.LibScatterLaw
import proofs.«115146_j15264313770213_2_alg».proof.Proof.LibSegmentIndex
import proofs.«115146_j15264313770213_2_alg».proof.Proof.DestinationFactor
import proofs.«115146_j15264313770213_2_alg».proof.Proof.DegreeFactor
import Idealize.ShloMosaic.Lib.Affine
import Idealize.ShloMosaic.Lib.ValueIdx

noncomputable section

namespace Cert.ReferenceIdeal.Segment

open Idealize.ShloMosaic Idealize.ShloMosaic.ValueIdx Cert.ReferenceIdeal Cert.ReferenceIdeal.Read
open Cert.ReferenceIdeal.Facts₀ Cert.ReferenceIdeal.Facts

/-- The accumulating scatter at the ideal values is the exact segment sum. -/
theorem open_scatter (x0 : S100000x64.Idx → EReal) (idx : IVec S3300000x1 32) (upd : S3300000x64.Idx → EReal) (i : S100000x64.Idx) :
    Host.scatterAdd (F := Ideal) (φ := .f32) scatter_S100000x64_S3300000x1_S3300000x64_1_0_0_1 x0 idx upd i = Ideal.hostScatterAdd scatter_S100000x64_S3300000x1_S3300000x64_1_0_0_1 x0 idx upd i := rfl

/-- Where update `(e, j)` of the aggregation lands: if on `(n, k)`, the destination word of edge `e`, read signed, is
    `n`, and `j = k`. -/
theorem lands (idx : IVec S3300000x1 32) (e : Fin 3300000) (j : Fin 64) (n : Fin 100000) (k : Fin 64)
    (h : scatter_S100000x64_S3300000x1_S3300000x64_1_0_0_1.resultIdx? (ix2 e j) idx = some (ix2 n k)) :
    (idx (ix2 e (0 : Fin 1))).toInt = (n.val : Int) ∧ j = k :=
  Cert.Lib.SegmentIndex.resultIdx_rows
    (show ScatterDims.WF ⟨2, ![100000, 64]⟩ ⟨2, ![3300000, 1]⟩ ⟨2, ![3300000, 64]⟩ [1] [0] [0] 1 from scatter_S100000x64_S3300000x1_S3300000x64_1_0_0_1.wf)
    idx e j n k h

/-- The aggregation starts from zeros. -/
theorem init_zero (i : S100000x64.Idx) : val_main_v46 (F := Ideal) i = 0 := by
  rw [val_main_v46_apply, val_main_cst_9_apply, Ideal.ofBits_def, Ideal.ofBits_zero_f32]

/-- One summand: for an edge whose destination word is the node `n`, the reference's update is the update without
    the destination factor, times `dis n`. -/
theorem summand (x1 : (⟨S2x3200000, .i32⟩ : BufTy).Contents (Elt Ideal)) (x2 : (⟨S3200000, .f32⟩ : BufTy).Contents (Elt Ideal)) (G : S3300000x64.Idx → EReal) (e : Fin 3300000) (j : Fin 64) (n : Fin 100000)
    (he : (val_main_v47 (F := Ideal) x1 (ix2 e (0 : Fin 1))).toInt = (n.val : Int)) :
    G (ix2 e j) * spread (val_main_v35 (F := Ideal) x1 x2) (ix2 e j)
      = G (ix2 e j) * spread (val_main_v27 (F := Ideal) x1 x2) (ix2 e j) * val_main_v19 (F := Ideal) x1 x2 (ix1 n) := by
  rw [spread_apply, spread_apply, val_main_v35_apply, Ideal.mulf_def, dis_at_dst x1 x2 e n he, mul_assoc]

/-- The reference's aggregate at `(n, k)` is the aggregate without the destination factor, times `dis n`; `G` is the
    gathered feature rows, any array at all. -/
theorem aggregate_factor (x1 : (⟨S2x3200000, .i32⟩ : BufTy).Contents (Elt Ideal)) (x2 : (⟨S3200000, .f32⟩ : BufTy).Contents (Elt Ideal)) (G : S3300000x64.Idx → EReal) (n : Fin 100000) (k : Fin 64) :
    Host.scatterAdd (F := Ideal) (φ := .f32) scatter_S100000x64_S3300000x1_S3300000x64_1_0_0_1 (val_main_v46 (F := Ideal)) (val_main_v47 (F := Ideal) x1)
        (mulf (F := Ideal) (φ := .f32) G (spread (val_main_v35 (F := Ideal) x1 x2))) (ix2 n k)
      = Host.scatterAdd (F := Ideal) (φ := .f32) scatter_S100000x64_S3300000x1_S3300000x64_1_0_0_1 (val_main_v46 (F := Ideal)) (val_main_v47 (F := Ideal) x1)
          (mulf (F := Ideal) (φ := .f32) G (spread (val_main_v27 (F := Ideal) x1 x2))) (ix2 n k)
        * val_main_v19 (F := Ideal) x1 x2 (ix1 n) :=
  (open_scatter _ _ _ _).trans
    ((Cert.Lib.ScatterLaw.hostScatterAdd_mul scatter_S100000x64_S3300000x1_S3300000x64_1_0_0_1 (val_main_v46 (F := Ideal)) (val_main_v47 (F := Ideal) x1)
        (fun u => G u * spread (val_main_v27 (F := Ideal) x1 x2) u)
        (fun u => G u * spread (val_main_v35 (F := Ideal) x1 x2) u)
        (fun i => val_main_v19 (F := Ideal) x1 x2 (ix1 (i 0))) (ix2 n k) (init_zero _)
        (Degree.dis_mem x1 x2 (ix1 n)).1 (Degree.dis_mem x1 x2 (ix1 n)).2
        (fun u hu => by
          obtain ⟨e, j, rfl⟩ : ∃ (e : Fin 3300000) (j : Fin 64), u = ix2 e j := ⟨u 0, u 1, eq_ix2 u⟩
          obtain ⟨he, rfl⟩ := lands _ e j n k hu
          exact summand x1 x2 G e j n he)).trans
      (congrArg (· * val_main_v19 (F := Ideal) x1 x2 (ix1 n)) (open_scatter _ _ _ _).symm))

end Cert.ReferenceIdeal.Segment

end
-- ==== Proof.ReferenceResult.lean ====
/-
  The reference's result, read at one entry.

  After the aggregation `a` (100000 × 64) the reference adds the bias `b1` to every row, cuts off below at the zero
  word, multiplies by the masked classifier weight `W ∘ M` (64 × 10) and adds the bias `b2` to every row. Entry
  `(r, q)` is
      (∑ k, max (a (r, k) + b1 k) z · (W (k, q) · M (k, q))) + b2 q,
  `z` the zero word's value — and its feature transform `x · (W1 ∘ M1)`, entry `(r, j)`, is
      ∑ k, x (r, k) · (W1 (k, j) · M1 (k, j)).
-/
import proofs.«115146_j15264313770213_2_alg».proof.Proof.Gen.ReferenceIdeal.Read
import Idealize.ShloMosaic.Lib.ValueIdx

noncomputable section

namespace Cert.ReferenceIdeal.Result

open Idealize.ShloMosaic Idealize.ShloMosaic.ValueIdx Cert.ReferenceIdeal Cert.ReferenceIdeal.Read

/-- The reference's feature transform at `(r, j)`. -/
theorem transform_apply (x0 : (⟨S100000x512, .f32⟩ : BufTy).Contents (Elt Ideal)) (x3 x4 : (⟨S512x64, .f32⟩ : BufTy).Contents (Elt Ideal))
    (r : Fin 100000) (j : Fin 64) :
    val_main_v1 (F := Ideal) x0 x3 x4 (ix2 r j) = ∑ k : Fin 512, x0 (ix2 r k) * (x3 (ix2 k j) * x4 (ix2 k j)) := by
  rw [val_main_v1_apply]
  refine Finset.sum_congr rfl fun k _ => ?_
  have il : lidx_main_v1 (ix2 r j) k = ix2 r k :=
    funext fun a => Fin.ext (by match a with | ⟨0, _⟩ => rfl | ⟨1, _⟩ => rfl)
  have ir : ridx_main_v1 (ix2 r j) k = ix2 k j :=
    funext fun a => Fin.ext (by match a with | ⟨0, _⟩ => rfl | ⟨1, _⟩ => rfl)
  rw [il, ir, val_main_v0_apply, Ideal.mulf_def]

/-- The reference's result at `(r, q)`, over its aggregation. -/
theorem result_apply (x0 : (⟨S100000x512, .f32⟩ : BufTy).Contents (Elt Ideal)) (x1 : (⟨S2x3200000, .i32⟩ : BufTy).Contents (Elt Ideal)) (x2 : (⟨S3200000, .f32⟩ : BufTy).Contents (Elt Ideal)) (x3 x4 : (⟨S512x64, .f32⟩ : BufTy).Contents (Elt Ideal)) (x5 : (⟨S64, .f32⟩ : BufTy).Contents (Elt Ideal)) (x6 x7 : (⟨S64x10, .f32⟩ : BufTy).Contents (Elt Ideal)) (x8 : (⟨S10, .f32⟩ : BufTy).Contents (Elt Ideal))
    (r : Fin 100000) (q : Fin 10) :
    val_main_v57 (F := Ideal) x0 x1 x2 x3 x4 x5 x6 x7 x8 (ix2 r q)
      = (∑ k : Fin 64, max (val_main_v48 (F := Ideal) x0 x1 x2 x3 x4 (ix2 r k) + x5 (ix1 k)) (Ideal.ofBits .f32 0x00000000#32)
          * (x6 (ix2 k q) * x7 (ix2 k q))) + x8 (ix1 q) := by
  have i8 : idx_main_v55 (idx_main_v56 (ix2 r q)) = ix1 q :=
    funext fun a => Fin.ext (by match a with | ⟨0, _⟩ => rfl)
  rw [val_main_v57_apply, val_main_v54_apply, val_main_v56_apply, val_main_v55_apply, i8, Ideal.addf_def]
  refine congrArg (· + x8 (ix1 q)) (Finset.sum_congr rfl fun k _ => ?_)
  have il : lidx_main_v54 (ix2 r q) k = ix2 r k :=
    funext fun a => Fin.ext (by match a with | ⟨0, _⟩ => rfl | ⟨1, _⟩ => rfl)
  have ir : ridx_main_v54 (ix2 r q) k = ix2 k q :=
    funext fun a => Fin.ext (by match a with | ⟨0, _⟩ => rfl | ⟨1, _⟩ => rfl)
  have i5 : idx_main_v49 (idx_main_v50 (ix2 r k)) = ix1 k :=
    funext fun a => Fin.ext (by match a with | ⟨0, _⟩ => rfl)
  rw [il, ir, val_main_v52_apply, val_main_v51_apply, val_main_v50_apply, val_main_v49_apply, i5,
    val_main_call1_v0_apply, val_main_call1_cst_apply, val_main_v53_apply,
    Ideal.maximumf_def, Ideal.addf_def, Ideal.mulf_def, Ideal.ofBits_def]

end Cert.ReferenceIdeal.Result

end
-- ==== Proof.Bridge.lean ====
/-
  The kernel's result array is the reference's result, as one function of the arguments.

  Kernel: the second call leaves `head a dv b1 W M b2` in the result array, where (from the host operations and the
  first call) `a` is the segment sum by `dst` of `g · spread (dis[src] · w)` with `g` the gathered rows of
  `x · (W1 ∘ M1)`, `dv` is `dis` as a column and `b1`, `b2` are the biases as rows. Entry `(r, q)` is
      (∑ k, max (a (r, k) · dis r + b1 k) z · (W (k, q) · M (k, q))) + b2 q.
  Reference: entry `(r, q)` is
      (∑ k, max (a' (r, k) + b1 k) z · (W (k, q) · M (k, q))) + b2 q
  with `a'` the segment sum of `g · spread ((dis[src] · w) · dis[dst])`.
  The two gathered arrays `g` are the same array (the two feature transforms are the same sum, entry by entry; the
  change of float format around the kernel's is the identity on extended reals), and `a' (r, k) = a (r, k) · dis r`
  is the segment-sum law. Everything else matches term by term.
-/
import proofs.«115146_j15264313770213_2_alg».proof.Proof.KernelRun
import proofs.«115146_j15264313770213_2_alg».proof.Proof.FeatureArray
import proofs.«115146_j15264313770213_2_alg».proof.Proof.HeadArray
import proofs.«115146_j15264313770213_2_alg».proof.Proof.HostStage
import proofs.«115146_j15264313770213_2_alg».proof.Proof.SegmentSum
import proofs.«115146_j15264313770213_2_alg».proof.Proof.ReferenceResult
import proofs.«115146_j15264313770213_2_alg».proof.Proof.LibKeepdims
import Idealize.ShloMosaic.Lib.ValueLayout
import Idealize.ShloMosaic.Lib.ValueIdx

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen
open Cert.ReferenceIdeal.Read

/-- The head's whole-array function at `(r, q)`. -/
theorem head_at (a : S100000x64.Idx → EReal) (dv : S100000x1.Idx → EReal) (b1 : S1x64.Idx → EReal)
    (w mk : S64x10.Idx → EReal) (b2 : S1x10.Idx → EReal) (r : Fin 100000) (q : Fin 10) :
    Head.head a dv b1 w mk b2 (ix2 r q)
      = (∑ k : Fin 64, max (a (ix2 r k) * dv (ix2 r (0 : Fin 1)) + b1 (ix2 (0 : Fin 1) k))
          (Ideal.ofBits .f32 0x00000000#32) * (w (ix2 k q) * mk (ix2 k q))) + b2 (ix2 (0 : Fin 1) q) := rfl

/-- The two feature transforms are one array. -/
theorem feat_eq (x0 : S100000x512.Idx → EReal) (x3 x4 : S512x64.Idx → EReal) :
    Feature.feat x0 x3 x4 = val_main_v1 (F := Ideal) x0 x3 x4 := by
  funext i
  obtain ⟨r, j, rfl⟩ : ∃ (r : Fin 100000) (j : Fin 64), i = ix2 r j := ⟨i 0, i 1, eq_ix2 i⟩
  exact (Cert.ReferenceIdeal.Result.transform_apply x0 x3 x4 r j).symm

/-- The gathered rows of the kernel's transform (read back through its change of float format) are the
    reference's gathered rows. -/
theorem gathered_eq (x0 : S100000x512.Idx → EReal) (x1 : S2x3200000.Idx → BitVec 32) (x3 x4 : S512x64.Idx → EReal) :
    extf (F := Ideal) (φ := .bf16) .f32 (Host.gather Cert.ReferenceIdeal.gather_S100000x64_S3300000x1_S3300000x64_1_0_n_n_0_1_164
        (Feature.feat x0 x3 x4) (val_main_v41 (F := Ideal) x1)) bitsLt_bf16_f32
      = val_main_v42 (F := Ideal) x0 x1 x3 x4 := by
  rw [feat_eq]
  rfl

variable (m : (ℓ : Loc nD τ sig) → Buf (Elt Ideal) ℓ) (ρ : Dev nD → PrngReg)

/-- What the second call finds, over the launch contents of the arguments: the aggregated features … -/
theorem found_aggregate (c : Dev nD) :
    V4 m ρ c main_v40
      = Host.scatterAdd (F := Ideal) (φ := .f32) Cert.ReferenceIdeal.scatter_S100000x64_S3300000x1_S3300000x64_1_0_0_1 (val_main_v46 (F := Ideal)) (val_main_v47 (F := Ideal) (m ((c.tc : Thread nD τ).loc main_arg1)))
          (mulf (F := Ideal) (φ := .f32) (val_main_v42 (F := Ideal) (m ((c.tc : Thread nD τ).loc main_arg0)) (m ((c.tc : Thread nD τ).loc main_arg1)) (m ((c.tc : Thread nD τ).loc main_arg3)) (m ((c.tc : Thread nD τ).loc main_arg4)))
            (Cert.ReferenceIdeal.Segment.spread (val_main_v27 (F := Ideal) (m ((c.tc : Thread nD τ).loc main_arg1)) (m ((c.tc : Thread nD τ).loc main_arg2))))) := by
  rw [Stage.aggregate_eq, Stage.feature_eq, Feature.final (V0 m ρ) c,
    Stage.arg_kept m ρ c main_arg1 (by decide), Stage.arg_kept m ρ c main_arg2 (by decide)]
  exact congrArg (fun g => Host.scatterAdd (F := Ideal) (φ := .f32) Cert.ReferenceIdeal.scatter_S100000x64_S3300000x1_S3300000x64_1_0_0_1 (val_main_v46 (F := Ideal))
      (val_main_v47 (F := Ideal) (m ((c.tc : Thread nD τ).loc main_arg1)))
      (mulf (F := Ideal) (φ := .f32) g (Cert.ReferenceIdeal.Segment.spread (val_main_v27 (F := Ideal) (m ((c.tc : Thread nD τ).loc main_arg1)) (m ((c.tc : Thread nD τ).loc main_arg2))))))
    (gathered_eq (m ((c.tc : Thread nD τ).loc main_arg0)) (m ((c.tc : Thread nD τ).loc main_arg1)) (m ((c.tc : Thread nD τ).loc main_arg3)) (m ((c.tc : Thread nD τ).loc main_arg4)))

/-- … the scaling column … -/
theorem found_column (c : Dev nD) :
    V4 m ρ c main_v41
      = shapeCast S100000x1 (val_main_v19 (F := Ideal) (m ((c.tc : Thread nD τ).loc main_arg1)) (m ((c.tc : Thread nD τ).loc main_arg2))) shapeCasts_S100000_S100000x1 := by
  rw [Stage.column_eq, Stage.arg_kept m ρ c main_arg1 (by decide), Stage.arg_kept m ρ c main_arg2 (by decide)]

/-- … the bias rows and the classifier's weight and mask. -/
theorem found_bias1 (c : Dev nD) : V4 m ρ c main_v42 = shapeCast S1x64 (m ((c.tc : Thread nD τ).loc main_arg5)) shapeCasts_S64_S1x64 := by
  rw [Stage.bias1_eq, Stage.arg_kept m ρ c main_arg5 (by decide)]
theorem found_bias2 (c : Dev nD) : V4 m ρ c main_v43 = shapeCast S1x10 (m ((c.tc : Thread nD τ).loc main_arg8)) shapeCasts_S10_S1x10 := by
  rw [Stage.bias2_eq, Stage.arg_kept m ρ c main_arg8 (by decide)]
theorem found_weight (c : Dev nD) : V4 m ρ c main_arg6 = (m ((c.tc : Thread nD τ).loc main_arg6)) := by
  rw [Stage.weight_eq, Stage.arg_kept m ρ c main_arg6 (by decide)]
theorem found_mask (c : Dev nD) : V4 m ρ c main_arg7 = (m ((c.tc : Thread nD τ).loc main_arg7)) := by
  rw [Stage.mask_eq, Stage.arg_kept m ρ c main_arg7 (by decide)]

/-- One entry of the two results' common middle: the kernel's aggregate times `dis r` is the reference's aggregate
    (`a` and `dv` name the two arrays the second call finds). -/
theorem aggregate_at (c : Dev nD) (r : Fin 100000) (k : Fin 64)
    (a : S100000x64.Idx → EReal) (dv : S100000x1.Idx → EReal)
    (ha : a = V4 m ρ c main_v40) (hdv : dv = V4 m ρ c main_v41) :
    a (ix2 r k) * dv (ix2 r (0 : Fin 1))
      = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 r k) := by
  rw [ha, hdv, found_aggregate, found_column, Cert.ReferenceIdeal.Segment.aggregate_unfold]
  refine Eq.trans ?_ (Cert.ReferenceIdeal.Segment.aggregate_factor (m ((c.tc : Thread nD τ).loc main_arg1)) (m ((c.tc : Thread nD τ).loc main_arg2))
    (val_main_v42 (F := Ideal) (m ((c.tc : Thread nD τ).loc main_arg0)) (m ((c.tc : Thread nD τ).loc main_arg1)) (m ((c.tc : Thread nD τ).loc main_arg3)) (m ((c.tc : Thread nD τ).loc main_arg4))) r k).symm
  exact congrArg _ (Cert.Keepdims.shapeCast_a_a1_apply _ _ r (0 : Fin 1))

/-- THE RESULT: what the kernel program leaves in its result buffer is the reference's result stage of the same
    arguments. -/
theorem result_eq (c : Dev nD) :
    W5 m ρ c (Proc.devRef .tc main_v44) = val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Whole.result_eq, Head.final (V4 m ρ) c]
  funext i
  obtain ⟨r, q, rfl⟩ : ∃ (r : Fin 100000) (q : Fin 10), i = ix2 r q := ⟨i 0, i 1, eq_ix2 i⟩
  rw [head_at, Cert.ReferenceIdeal.Result.result_apply]
  refine congrArg₂ (· + ·) (Finset.sum_congr rfl fun k _ => ?_) ?_
  · refine congrArg₂ (· * ·) (congrArg (fun v : EReal => max v (Ideal.ofBits .f32 0x00000000#32))
        (congrArg₂ (· + ·) (aggregate_at m ρ c r k _ _ rfl rfl) ?_)) (congrArg₂ (· * ·) ?_ ?_)
    · rw [found_bias1]; exact shapeCast_a_1a_apply _ _ (0 : Fin 1) k
    · rw [found_weight]
    · rw [found_mask]
  · rw [found_bias2]; exact shapeCast_a_1a_apply _ _ (0 : Fin 1) q

end Cert.KernelIdeal.Bridge

end
-- ==== Proof.lean ====
/-
  A two-layer masked graph convolution on 100000 nodes and 3200000 weighted edges (plus one self loop per node):
  the kernel program against its reference, on the extended reals.

  Both programs compute
      h    = x · (W1 ∘ M1)                                   (100000 × 64)
      deg  = segment sum of the edge weights by destination,   dis = deg^(-1/2) floored at a tiny ε, 0 where deg ≤ 0
      agg  = segment sum by destination of the gathered rows h[src], each scaled by a per-edge factor
      out  = max (agg ⋯ + b1) 0 · (W2 ∘ M2) + b2               (100000 × 10).
  The reference scales row `h[src e]` by `dis[src e] · w e · dis[dst e]` before summing. The kernel scales it by
  `dis[src e] · w e` only, sums, and multiplies node `n`'s sum by `dis n` afterwards (inside its second call, where
  the bias, the cut-off and the classifier product also happen). The two agree because

    * an edge contributes to node `n`'s sum only when its destination word, read signed, is `n` itself — the sum
      neither wraps nor clamps an index — and then the gather `dis[dst e]`, which wraps a negative index and clamps
      into range, reads `dis n` (Proof/DestinationFactor.lean);
    * `0 ≤ dis n < ⊤` whatever the degree is, so the common right factor `dis n` comes out of a sum of extended
      reals; no finiteness of the summands is needed, and the precondition is never opened
      (Proof/DegreeFactor.lean, Proof/LibScatterLaw.lean, Proof/SegmentSum.lean);
    * the two feature transforms are the same sum entry by entry, a change of float format being the identity on
      extended reals and a matrix product accumulated into zeros being the plain product
      (Proof/Payloads.lean, Proof/FeatureArray.lean, Proof/ReferenceResult.lean).

  The kernel program's two calls are read as whole-array functions of what they find (Proof/FeatureArray.lean,
  Proof/HeadArray.lean), the host operations between them are read back in order (Proof/HostStage.lean), and its run
  keeps the result buffer (Proof/KernelRun.lean); Proof/Bridge.lean puts the pieces together entry by entry.
  The idealization pass rewrote nothing, so `preserves` is trivial; the three frames are the generated ones.
-/
import proofs.«115146_j15264313770213_2_alg».proof.Defs
import proofs.«115146_j15264313770213_2_alg».proof.Proof.Gen.Kernel
import proofs.«115146_j15264313770213_2_alg».proof.Proof.Gen.Kernel.Skeleton
import proofs.«115146_j15264313770213_2_alg».proof.Proof.Gen.Kernel.Launch
import proofs.«115146_j15264313770213_2_alg».proof.Proof.Gen.Kernel.Points
import proofs.«115146_j15264313770213_2_alg».proof.Proof.Gen.Kernel.Frame
import proofs.«115146_j15264313770213_2_alg».proof.Proof.Gen.KernelIdeal
import proofs.«115146_j15264313770213_2_alg».proof.Proof.Gen.KernelIdeal.Skeleton
import proofs.«115146_j15264313770213_2_alg».proof.Proof.Gen.KernelIdeal.Launch
import proofs.«115146_j15264313770213_2_alg».proof.Proof.Gen.KernelIdeal.Points
import proofs.«115146_j15264313770213_2_alg».proof.Proof.Gen.KernelIdeal.Frame
import proofs.«115146_j15264313770213_2_alg».proof.Proof.Gen.ReferenceIdeal
import proofs.«115146_j15264313770213_2_alg».proof.Proof.Gen.Pre_finite_inputs
import proofs.«115146_j15264313770213_2_alg».proof.Proof.Gen.ReferenceIdeal.Run
import proofs.«115146_j15264313770213_2_alg».proof.Proof.Gen.ReferenceIdeal.Read
import proofs.«115146_j15264313770213_2_alg».proof.Proof.KernelRun
import proofs.«115146_j15264313770213_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories that agree on the nine arguments both programs run, and the reference's result is the kernel's:
    the reference's result stage of the arguments IS what the kernel leaves in its result buffer. -/
theorem algebraic : Cert.algebraic_KernelIdeal_ReferenceIdeal := by
  intro m ρ m' ρ' _ hagree
  refine ⟨fun c => Cert.KernelIdeal.Gen.W5 m ρ c (Proc.devRef .tc Cert.KernelIdeal.main_v44),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v57_eq, a0, a1, a2, a3, a4, a5, a6, a7, a8]
  exact (Cert.KernelIdeal.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
